-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 4
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S400x128, .f32⟩
  | .local _ .vmem, ⟨7, _⟩ => ⟨S400x128, .f32⟩
  | .local _ .vmem, ⟨8, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S10000x128_S128x128_S10000x128_1_1_0_0_n_n_wf : DotDims.WF S10000x128 S128x128 S10000x128 [1] [1] [0] [0] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 6
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  transposes_S128x128_S128x128_1_0 : S128x128.Transposes [1, 0] S128x128
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BitsSetup.lean ====
/-
  What the frame of the graph-convolution kernel is stated over.

  The kernel runs on a grid of 25 points. Its five windows are: the feature matrix x (10000 x 128) and the
  weight matrix W (128 x 128), each one block fetched once; two windows on the SAME adjacency matrix adj
  (10000 x 10000), at point t the row blocks 2t and 2t+1 of 200 rows each; and the output (10000 x 128) in
  blocks of 400 rows. A scratch buffer (10000 x 128) holds the support x * W^T, computed at the first point
  and read at every point.

  Here: the arrays as the region finds them (the launch memory: nothing runs before the region), each
  window's block at a point, the one branch condition of the body decided over the grid (it holds at the
  first point only), the staging and scratch memrefs as the pipeline passes them to the body, and the scoped
  rest of the core as one owned memref (the scratch).
-/
import proofs.«122292_g23965917512253_cont_8to1_1062_13_alg».proof.Proof.Gen.Kernel.Launch
import proofs.«122292_g23965917512253_cont_8to1_1062_13_alg».proof.Proof.Gen.Kernel.Skeleton
import proofs.«122292_g23965917512253_cont_8to1_1062_13_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 65536

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- The buffers' contents when the region is entered: the launch memory (no host operation precedes the region). -/
abbrev V (c : Dev nD) (b : Ref sig .tc) : Buf (Elt F) ((c : Thread nD τ).loc b) := m ((c : Thread nD τ).loc b)

/-- The program is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array at the region's entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch -/

/-- The condition under which the body computes the support: the grid coordinate is zero. -/
abbrev isFirst (i : grid0.Coords) : Prop :=
  (Scalar.cmpi .ne (Scalar.extui (Scalar.cmpi .eq (BitVec.ofNat 32 (i 0).val) 0#32)) 0#32) = 1#1

/-- It holds at the first point and at no other. -/
theorem isFirst_iff : ∀ t : Fin cfg0.N, isFirst (grid0.coords t) ↔ t.val = 0 :=
  (by decide +kernel : ∀ t : Fin grid0.N, isFirst (grid0.coords t) ↔ t.val = 0)

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The scratch that holds the support. -/
abbrev scM : Memref sig .tc .vmem S10000x128 .f32 := Memref.whole cc0_scratch0
/-- One staging buffer of the output window, and the scratch, as views: contents are stated through them. -/
abbrev VO : View sig .tc .vmem S400x128 .f32 := (Memref.whole cc0_stg4_0 : Memref sig .tc .vmem S400x128 .f32).view
abbrev VS : View sig .tc .vmem S10000x128 .f32 := scM.view

/-- The core's scoped buffers that no window stages are the scratch alone, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Fr

end
-- ==== Proof.BitsRunFirst.lean ====
/-
  The body at the grid's first point, on any whole staging memrefs.

  There the branch is taken: the body loads x and W, stores their product x * W^T (the support) into the scratch,
  then loads the two adjacency row blocks and the scratch and stores the two products, 200 rows each, into the
  upper and the lower half of the output's staging buffer. The scratch and the output buffer may hold anything
  when the body starts. What the stores leave in the two buffers is found by running the body symbolically:
  the lists of stored pieces are the witness.
-/
import proofs.«122292_g23965917512253_cont_8to1_1062_13_alg».proof.Proof.BitsSetup

set_option maxRecDepth 65536

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces the first point's stores leave in the output buffer and in the scratch, with the proof that the
    body runs: the four inputs' buffers at their contents and handed back unchanged, the output buffer and the
    scratch at anything and handed back with their pieces written. -/
noncomputable def runFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : isFirst i)
    (x0 : Vec F S10000x128 .f32) (x1 : Vec F S128x128 .f32) (x2 : Vec F S200x10000 .f32) (x3 : Vec F S200x10000 .f32) :
    Σ' (L4 : List (View.Piece (Elt F) S400x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1
    obtain rfl := harg3.eq_unread hf2; obtain rfl := harg4.eq_unread hf3
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.Kernel.Fr

end
-- ==== Proof.BitsRunLater.lean ====
/-
  The body at a point after the first, on any whole staging memrefs.

  There the branch is not taken: the body loads the two adjacency row blocks and the scratch, which holds the
  support the first point stored, and stores the two products, 200 rows each, into the upper and the lower half
  of the output's staging buffer. The scratch is only read. The pieces the stores leave in the output buffer are
  found by running the body symbolically.
-/
import proofs.«122292_g23965917512253_cont_8to1_1062_13_alg».proof.Proof.BitsRunFirst

set_option maxRecDepth 65536

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces a later point's stores leave in the output buffer, with the proof that the body runs: the four
    inputs' buffers and the scratch at their contents and handed back unchanged, the output buffer at anything
    and handed back with its pieces written. -/
noncomputable def runLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : ¬isFirst i)
    (x0 : Vec F S10000x128 .f32) (x1 : Vec F S128x128 .f32) (x2 : Vec F S200x10000 .f32) (x3 : Vec F S200x10000 .f32)
    (xs : Vec F S10000x128 .f32) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1
    obtain rfl := harg3.eq_unread hf2; obtain rfl := harg4.eq_unread hf3
    obtain rfl := harg6.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS

end Cert.Kernel.Fr

end
-- ==== Proof.LibSharedArrayRun.lean ====
/-
  The run of a program that is one pipelined region whose windows may share arrays.

  When a kernel is handed one array through several input windows, the buffers behind the windows' arrays are
  fewer than the windows, and the full share of a shared buffer has to be dealt among the windows on it. This
  file states the run for that case over any family of pipeline configurations and any proof data, for a kernel
  that uses no semaphore of its own and whose invariant is entered from, and returns to, the core's scoped
  buffers that no window stages (its scratch): every weakly fair execution terminates, and at the end every
  window's array holds what the write-backs of the proof data leave in it (windows on one array end holding the
  same contents). What the certificate supplies besides the body obligation is how the distinct buffers, each
  whole at the full share at the entry contents, make the proof data's arrays at their shares (`hsplit`): for
  an array read by two windows, its full share split in two halves.
-/
import Idealize.ShloMosaic.Lib.Pipeline.Frame

noncomputable section

namespace Cert.LibSharedArrayRun

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} [∀ e, Nonempty (Val e)]
variable {Λ₀ : Idealize.SL.Sem.Labels} {P : Type} [Fintype P] [DecidableEq P]

local notation "𝕄" => MT nD τ sig Unit Val ℕ (UR sig nD τ) ℕ

set_option backward.isDefEq.respectTransparency.types false in
/-- The run of pipeline `p`'s region as the whole program, its windows possibly sharing arrays: from any memory
    with zero counters every weakly fair execution terminates and every window's array ends at the proof data's
    `arrAt … N`. `hsplit` deals the distinct buffers' full shares among the windows; `hin` enters the invariant
    from the scoped buffers no window stages, `hout` gives them back; every other unscoped buffer bypasses the
    region. -/
theorem run_shared (cfgs : P → Cfg sig Λ₀) (dats : (p : P) → (c : Dev nD) → Dat τ Val Unit ℕ (UR sig nD τ) ℕ (cfgs p) c)
    (hinj : Function.Injective (cellOf (nD := nD) (τ := τ) cfgs)) (p : P) (hw : WinFacts₀ (cfgs p).spec)
    (defs₀ : Defs nD τ sig Val Λ₀) (𝒱₀ : Variants)
    (m : (ℓ : Loc nD τ sig) → Buf Val ℓ) (g : Dev nD → PrngReg)
    (main : Dev nD → Prog (TpuEff nD τ sig Val (Pipeline.Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (Ix := Unit) (Name := ℕ) (U := UR sig nD τ) (Lvl := ℕ) (Val := Val) (cfgs p).spec c : sProp 𝕄) ⊢ (dats p c).Φ 0)
    (hout : ∀ c, (dats p c).Φ (Fin.last (cfgs p).N)
      ⊢ (scopedRest (Ix := Unit) (Name := ℕ) (U := UR sig nD τ) (Lvl := ℕ) (Val := Val) (cfgs p).spec c : sProp 𝕄)) :
    θ_run (Pipeline.defs (fun q => Cfg.toPCfg (Val := Val) (cfgs q)) defs₀) (onTc main) (s₀ m g)
      (fun r => ∀ c : Dev nD, ∀ w : Fin (cfgs p).W,
        r.2.mem (((cfgs p).spec w).arr.view.loc (c.tc : Thread nD τ)) = (dats p c).arrAt w (cfgs p).N) :=
  θ_run_region_noSem_shared cfgs dats () hinj p hw emb₁ defs₀ 𝒱₀ m g main
    (hbody := hbody) (hne := hne) (harr := harr) (hstage := hstage) (howed := howed)
    (u₀ := initOf (cells cfgs hinj) (launchToks cfgs hinj)) (hu₀ := .rfl)
    (V := V) (hmain := hmain) (hsplit := hsplit)
    (X := fun _ => BI.emp) (Y := fun _ => BI.emp)
    (Z := fun c => unscopedRest (Ix := Unit) (Name := ℕ) (U := UR sig nD τ) (Lvl := ℕ) (cfgs p).spec c (V c))
    (hX := fun c => by iintro H; isplitr; · iempintro
                       iexact H)
    (hin := fun c => (show _ ⊢ (scopedRest (Ix := Unit) (Name := ℕ) (U := UR sig nD τ) (Lvl := ℕ) (Val := Val) (cfgs p).spec c : sProp 𝕄) from by
      iintro ⟨-, H⟩; iexact H).trans (hin c))
    (hout := fun c => (hout c).trans (by iintro H; isplitr; · iempintro
                                         iexact H))
    (QY := fun _ _ => True)
    (hY := fun c s' => by
      iintro ⟨-, -, HSI⟩; imodintro
      isplitr; · ipureintro; trivial
      iexact HSI)
    (hQ := fun s h c w => (h c).1 w)

end Cert.LibSharedArrayRun

end
-- ==== Proof.BitsFrame.lean ====
/-
  The frame of the graph-convolution kernel: it runs to the end, faults nowhere, and leaves its arguments as
  they were — together with what its output array holds at the end, block by block.

  The support x * W^T is stored into the scratch at the first grid point and only read afterwards, so after
  every point the scratch holds one and the same array, `supp`. At every point the output's staging buffer
  is overwritten whole, by two stores of 200 rows each; `outAt` names what they leave there.

  The adjacency matrix is read through two windows. Neither writes it, so each holds it at half the full
  share: the buffer's full share, which the launch hands over, is split in two at the entry (`arrays_of_bufs`).
-/
import proofs.«122292_g23965917512253_cont_8to1_1062_13_alg».proof.Proof.BitsRunLater
import proofs.«122292_g23965917512253_cont_8to1_1062_13_alg».proof.Proof.LibSharedArrayRun

set_option maxRecDepth 65536

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stored pieces cover their buffers -/

theorem coverOut_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : isFirst i)
    (x0 : Vec F S10000x128 .f32) (x1 : Vec F S128x128 .f32) (x2 : Vec F S200x10000 .f32) (x3 : Vec F S200x10000 .f32) (y : S400x128.Idx) :
    ∃ pc ∈ (runFirst c i arg1 harg1 arg2 harg2 arg3 harg3 arg4 harg4 arg5 harg5 arg6 harg6 hc x0 x1 x2 x3).1, y ∈ pc.1.set :=
  View.cover_of_tiledL (runFirst c i arg1 harg1 arg2 harg2 arg3 harg3 arg4 harg4 arg5 harg5 arg6 harg6 hc x0 x1 x2 x3).1 S200x128.size (by sl_kernel_rfl) y

theorem coverScratch_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : isFirst i)
    (x0 : Vec F S10000x128 .f32) (x1 : Vec F S128x128 .f32) (x2 : Vec F S200x10000 .f32) (x3 : Vec F S200x10000 .f32) (y : S10000x128.Idx) :
    ∃ pc ∈ (runFirst c i arg1 harg1 arg2 harg2 arg3 harg3 arg4 harg4 arg5 harg5 arg6 harg6 hc x0 x1 x2 x3).2.1, y ∈ pc.1.set :=
  View.cover_of_tiledL (runFirst c i arg1 harg1 arg2 harg2 arg3 harg3 arg4 harg4 arg5 harg5 arg6 harg6 hc x0 x1 x2 x3).2.1 S10000x128.size (by sl_kernel_rfl) y

theorem coverOut_later (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : ¬isFirst i)
    (x0 : Vec F S10000x128 .f32) (x1 : Vec F S128x128 .f32) (x2 : Vec F S200x10000 .f32) (x3 : Vec F S200x10000 .f32)
    (xs : Vec F S10000x128 .f32) (y : S400x128.Idx) :
    ∃ pc ∈ (runLater c i arg1 harg1 arg2 harg2 arg3 harg3 arg4 harg4 arg5 harg5 arg6 harg6 hc x0 x1 x2 x3 xs).1, y ∈ pc.1.set :=
  View.cover_of_tiledL (runLater c i arg1 harg1 arg2 harg2 arg3 harg3 arg4 harg4 arg5 harg5 arg6 harg6 hc x0 x1 x2 x3 xs).1 S200x128.size (by sl_kernel_rfl) y

/-! ## What the buffers hold after each point -/

/-- The first grid point. -/
def t₀ : Fin cfg0.N := ⟨0, by decide⟩

theorem first_t₀ : isFirst (grid0.coords t₀) := (isFirst_iff t₀).mpr rfl

/-- The support: what the first point's stores leave in the scratch. -/
def supp (c : Dev nD) : Vec F S10000x128 .f32 :=
  VS.read (Elt F) (VS.writes (Elt F) VS.junk (runFirst c (grid0.coords t₀) (ms0 t₀) (hs0 t₀) (ms1 t₀) (hs1 t₀) (ms2 t₀) (hs2 t₀) (ms3 t₀) (hs3 t₀) (ms4 t₀) (hs4 t₀) scM (Memref.isWhole_whole _) first_t₀ (iblk m c 0 t₀) (iblk m c 1 t₀) (iblk m c 2 t₀) (iblk m c 3 t₀)).2.1)

/-- What the first point's stores leave in the output's staging buffer. -/
def outFirst (c : Dev nD) (t : Fin cfg0.N) (h : isFirst (grid0.coords t)) : Vec F S400x128 .f32 :=
  VO.read (Elt F) (VO.writes (Elt F) VO.junk (runFirst c (grid0.coords t) (ms0 t) (hs0 t) (ms1 t) (hs1 t) (ms2 t) (hs2 t) (ms3 t) (hs3 t) (ms4 t) (hs4 t) scM (Memref.isWhole_whole _) h (iblk m c 0 t) (iblk m c 1 t) (iblk m c 2 t) (iblk m c 3 t)).1)

/-- What a later point's stores leave there, the scratch holding the support. -/
def outLater (c : Dev nD) (t : Fin cfg0.N) (h : ¬isFirst (grid0.coords t)) : Vec F S400x128 .f32 :=
  VO.read (Elt F) (VO.writes (Elt F) VO.junk (runLater c (grid0.coords t) (ms0 t) (hs0 t) (ms1 t) (hs1 t) (ms2 t) (hs2 t) (ms3 t) (hs3 t) (ms4 t) (hs4 t) scM (Memref.isWhole_whole _) h (iblk m c 0 t) (iblk m c 1 t) (iblk m c 2 t) (iblk m c 3 t) (supp m c)).1)

/-- The output's staging buffer after the body at point `t`. -/
def outAt (c : Dev nD) (t : Fin cfg0.N) : Vec F S400x128 .f32 :=
  if h : isFirst (grid0.coords t) then outFirst m c t h else outLater m c t h

theorem outAt_first (c : Dev nD) (t : Fin cfg0.N) (h : isFirst (grid0.coords t)) : outAt m c t = outFirst m c t h := dif_pos h
theorem outAt_later (c : Dev nD) (t : Fin cfg0.N) (h : ¬isFirst (grid0.coords t)) : outAt m c t = outLater m c t h := dif_neg h

/-- The region's invariant before position `n`: before the first point the scoped rest (the scratch at anything);
    afterwards the scratch at the support. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (supp m c)

theorem PhiS_zero (c : Dev nD) (n : ℕ) (hz : n = 0) :
    PhiS m c n = Pipeline.scopedRest (Ix := Unit) (Name := ℕ) (U := UR sig nD τ) (Lvl := ℕ) (Val := Elt F) spec0 c := by
  subst hz; rfl

theorem PhiS_pos (c : Dev nD) (n : ℕ) (hz : n ≠ 0) : PhiS m c n = owns (c : Thread nD τ) scM fullShare (supp m c) := by
  cases n with
  | zero => exact absurd rfl hz
  | succ n => rfl

/-! ## The proof data -/

/-- The proof data of the pipeline on core `c`: the arrays as the region finds them; after the body each
    input's buffer at its block and the output's at `outAt`; the invariant `PhiS`; nothing owed; the adjacency
    matrix held half and half by its two windows, every other input whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

/-- Each input's current staging buffer holds its block at every point, whether the point fetches it or not:
    a block not fetched again has not moved. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 4000000 in
/-- The body at any point. The inputs' buffers hold their blocks. At the first point the scratch holds anything
    and the run stores the support into it; at a later point the scratch holds the support and the run only
    reads it. Either way the output's buffer ends covered by the run's two pieces. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    show (dats m 0 c).Φ t.succ = PhiS m c (t.val + 1) from rfl, PhiS_pos m c _ (Nat.succ_ne_zero _),
    show (dats m 0 c).Φ t.castSucc = PhiS m c t.val from rfl,
    after_0, after_1, after_2, after_3, after_4]
  by_cases h0 : t.val = 0
  · rw [PhiS_zero m c _ h0, scopedRest_scratch]
    obtain rfl : t = t₀ := Fin.ext h0
    rw [outAt_first m c t₀ first_t₀]
    unfold outFirst
    iintro ⟨HS, Ho, ⟨%d0, H0⟩, ⟨%d1, H1⟩, ⟨%d2, H2⟩, ⟨%d3, H3⟩, ⟨%d4, H4⟩⟩
    iapply ((runFirst c (grid0.coords t₀) _ _ _ _ _ _ _ _ _ _ _ _ first_t₀ (iblk m c 0 t₀) (iblk m c 1 t₀) (iblk m c 2 t₀) (iblk m c 3 t₀)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (coverScratch_first c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOut_first c _ _ _ _ _ _ _ _ _ _ _ _ _ _ _ _ _ _)
  · have hl : ¬isFirst (grid0.coords t) := fun h => h0 ((isFirst_iff t).mp h)
    rw [PhiS_pos m c _ h0, outAt_later m c t hl]
    unfold outLater
    iintro ⟨HS, Ho, ⟨%d0, H0⟩, ⟨%d1, H1⟩, ⟨%d2, H2⟩, ⟨%d3, H3⟩, ⟨%d4, H4⟩⟩
    iapply ((runLater c (grid0.coords t) _ _ _ _ _ _ _ _ _ _ _ _ hl (iblk m c 0 t) (iblk m c 1 t) (iblk m c 2 t) (iblk m c 3 t) (supp m c)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOut_later c _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The arrays at the entry -/

theorem share_0 (c : Dev nD) : (dats m 0 c).share 0 = fullShare := rfl
theorem share_1 (c : Dev nD) : (dats m 0 c).share 1 = fullShare := rfl
theorem share_2 (c : Dev nD) : (dats m 0 c).share 2 = fullShare.left := rfl
theorem share_3 (c : Dev nD) : (dats m 0 c).share 3 = fullShare.right := rfl
theorem share_4 (c : Dev nD) : (dats m 0 c).share 4 = fullShare := rfl

/-- The four buffers behind the five windows' arrays, each whole at the full share, are the pipeline's arrays at
    the entry: the adjacency matrix's full share splits into the two halves its two windows hold. -/
theorem arrays_of_bufs (c : Dev nD) :
    (Pipeline.arrBufs spec0 c (V m c) : sProp 𝕄) ⊢ (dats m 0 c).arrays ((dats m 0 c).arrAt · 0) := by
  have hL (Φ : Ref sig .tc → sProp 𝕄) : bigSep (Finset.univ.image (Pipeline.arrRef spec0)) Φ
      = iprop(Φ main_arg0 ∗ Φ main_arg2 ∗ Φ main_arg1 ∗ Φ main_v0) :=
    bigSep_eq_bigSepL_of_eq [main_arg0, main_arg2, main_arg1, main_v0] (by decide) (by decide) Φ
  unfold Pipeline.arrBufs Dat.arrays
  rw [bigSep_W0, hL]
  rw [(arr_whole0 0).set_eq_univ, (arr_whole0 1).set_eq_univ, (arr_whole0 2).set_eq_univ, (arr_whole0 4).set_eq_univ,
    share_0, share_1, share_2, share_3, share_4]
  iintro ⟨H0, H2, H1, H4⟩
  ihave ⟨H1a, H1b⟩ := (pointsTo_share (PosShare.mem_left_op_right fullShare)).1 $$ H1
  isplitl [H0]; · iexact H0
  isplitl [H2]; · iexact H2
  isplitl [H1a]; · iexact H1a
  isplitl [H1b]; · iexact H1b
  iexact H4

/-! ## The run -/

set_option backward.isDefEq.respectTransparency.types false in
/-- From any memory with zero counters every weakly fair execution of the program terminates, and at the end every
    window's array holds what the write-backs of the proof data leave in it: the run of one region whose windows
    share an array, entered from the scratch at anything and left with the scratch forgotten again. -/
theorem run_main : θ_run defs (onTc (τ := τ) (main (F := F))) (s₀ m ρ)
    (fun r => ∀ c : Dev nD, ∀ w : Fin cfg0.W, r.2.mem (((cfg0).spec w).arr.view.loc (c.tc : Thread nD τ)) = (dats m 0 c).arrAt w cfg0.N) :=
  Cert.LibSharedArrayRun.run_shared cfgs (dats m) cellOf_inj (0 : Fin 1) winFacts₀0 defs₀ Variants.none m ρ main
    (hbody := fun c => (body_obligation m c).loose) (hne := block_pos0) (harr := arr_whole0) (hstage := stage_whole0)
    (howed := fun _ _ => rfl) (V := V m) (hmain := hmain m Variants.none) (hsplit := arrays_of_bufs m)
    (hin := fun c => by
      rw [show (dats m 0 c).Φ 0 = PhiS m c 0 from rfl, PhiS_zero m c 0 rfl]
      try exact Idealize.SL.BI.Entails.refl _)
    (hout := fun c => by
      rw [show (dats m 0 c).Φ (Fin.last cfg0.N) = PhiS m c (Fin.last cfg0.N).val from rfl,
        PhiS_pos m c _ (by rw [Fin.val_last]; have : cfg0.N = 25 := N_0; omega), scopedRest_scratch]
      iintro H; iexists _; iexact H)

/-- The frame: the program runs to the end and its three arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c) 0).trans ((dats m 0 c).arrAt_in 0 rfl _),
     ((h c) 2).trans ((dats m 0 c).arrAt_in 2 rfl _),
     ((h c) 1).trans ((dats m 0 c).arrAt_in 1 rfl _)⟩) (run_main m ρ)

end Cert.Kernel.Fr

end
-- ==== Proof.IdealSetup.lean ====
/-
  What the frame of the graph-convolution kernel is stated over.

  The kernel runs on a grid of 25 points. Its five windows are: the feature matrix x (10000 x 128) and the
  weight matrix W (128 x 128), each one block fetched once; two windows on the SAME adjacency matrix adj
  (10000 x 10000), at point t the row blocks 2t and 2t+1 of 200 rows each; and the output (10000 x 128) in
  blocks of 400 rows. A scratch buffer (10000 x 128) holds the support x * W^T, computed at the first point
  and read at every point.

  Here: the arrays as the region finds them (the launch memory: nothing runs before the region), each
  window's block at a point, the one branch condition of the body decided over the grid (it holds at the
  first point only), the staging and scratch memrefs as the pipeline passes them to the body, and the scoped
  rest of the core as one owned memref (the scratch).
-/
import proofs.«122292_g23965917512253_cont_8to1_1062_13_alg».proof.Proof.Gen.KernelIdeal.Launch
import proofs.«122292_g23965917512253_cont_8to1_1062_13_alg».proof.Proof.Gen.KernelIdeal.Skeleton
import proofs.«122292_g23965917512253_cont_8to1_1062_13_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 65536

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- The buffers' contents when the region is entered: the launch memory (no host operation precedes the region). -/
abbrev V (c : Dev nD) (b : Ref sig .tc) : Buf (Elt F) ((c : Thread nD τ).loc b) := m ((c : Thread nD τ).loc b)

/-- The program is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array at the region's entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch -/

/-- The condition under which the body computes the support: the grid coordinate is zero. -/
abbrev isFirst (i : grid0.Coords) : Prop :=
  (Scalar.cmpi .ne (Scalar.extui (Scalar.cmpi .eq (BitVec.ofNat 32 (i 0).val) 0#32)) 0#32) = 1#1

/-- It holds at the first point and at no other. -/
theorem isFirst_iff : ∀ t : Fin cfg0.N, isFirst (grid0.coords t) ↔ t.val = 0 :=
  (by decide +kernel : ∀ t : Fin grid0.N, isFirst (grid0.coords t) ↔ t.val = 0)

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The scratch that holds the support. -/
abbrev scM : Memref sig .tc .vmem S10000x128 .f32 := Memref.whole cc0_scratch0
/-- One staging buffer of the output window, and the scratch, as views: contents are stated through them. -/
abbrev VO : View sig .tc .vmem S400x128 .f32 := (Memref.whole cc0_stg4_0 : Memref sig .tc .vmem S400x128 .f32).view
abbrev VS : View sig .tc .vmem S10000x128 .f32 := scM.view

/-- The core's scoped buffers that no window stages are the scratch alone, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Fr

end
-- ==== Proof.IdealRunFirst.lean ====
/-
  The body at the grid's first point, on any whole staging memrefs.

  There the branch is taken: the body loads x and W, stores their product x * W^T (the support) into the scratch,
  then loads the two adjacency row blocks and the scratch and stores the two products, 200 rows each, into the
  upper and the lower half of the output's staging buffer. The scratch and the output buffer may hold anything
  when the body starts. What the stores leave in the two buffers is found by running the body symbolically:
  the lists of stored pieces are the witness.
-/
import proofs.«122292_g23965917512253_cont_8to1_1062_13_alg».proof.Proof.IdealSetup

set_option maxRecDepth 65536

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces the first point's stores leave in the output buffer and in the scratch, with the proof that the
    body runs: the four inputs' buffers at their contents and handed back unchanged, the output buffer and the
    scratch at anything and handed back with their pieces written. -/
noncomputable def runFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : isFirst i)
    (x0 : Vec F S10000x128 .f32) (x1 : Vec F S128x128 .f32) (x2 : Vec F S200x10000 .f32) (x3 : Vec F S200x10000 .f32) :
    Σ' (L4 : List (View.Piece (Elt F) S400x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1
    obtain rfl := harg3.eq_unread hf2; obtain rfl := harg4.eq_unread hf3
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.KernelIdeal.Fr

end
-- ==== Proof.IdealRunLater.lean ====
/-
  The body at a point after the first, on any whole staging memrefs.

  There the branch is not taken: the body loads the two adjacency row blocks and the scratch, which holds the
  support the first point stored, and stores the two products, 200 rows each, into the upper and the lower half
  of the output's staging buffer. The scratch is only read. The pieces the stores leave in the output buffer are
  found by running the body symbolically.
-/
import proofs.«122292_g23965917512253_cont_8to1_1062_13_alg».proof.Proof.IdealRunFirst

set_option maxRecDepth 65536

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces a later point's stores leave in the output buffer, with the proof that the body runs: the four
    inputs' buffers and the scratch at their contents and handed back unchanged, the output buffer at anything
    and handed back with its pieces written. -/
noncomputable def runLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : ¬isFirst i)
    (x0 : Vec F S10000x128 .f32) (x1 : Vec F S128x128 .f32) (x2 : Vec F S200x10000 .f32) (x3 : Vec F S200x10000 .f32)
    (xs : Vec F S10000x128 .f32) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1
    obtain rfl := harg3.eq_unread hf2; obtain rfl := harg4.eq_unread hf3
    obtain rfl := harg6.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS

end Cert.KernelIdeal.Fr

end
-- ==== Proof.IdealFrame.lean ====
/-
  The frame of the graph-convolution kernel: it runs to the end, faults nowhere, and leaves its arguments as
  they were — together with what its output array holds at the end, block by block.

  The support x * W^T is stored into the scratch at the first grid point and only read afterwards, so after
  every point the scratch holds one and the same array, `supp`. At every point the output's staging buffer
  is overwritten whole, by two stores of 200 rows each; `outAt` names what they leave there.

  The adjacency matrix is read through two windows. Neither writes it, so each holds it at half the full
  share: the buffer's full share, which the launch hands over, is split in two at the entry (`arrays_of_bufs`).
-/
import proofs.«122292_g23965917512253_cont_8to1_1062_13_alg».proof.Proof.IdealRunLater
import proofs.«122292_g23965917512253_cont_8to1_1062_13_alg».proof.Proof.LibSharedArrayRun

set_option maxRecDepth 65536

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stored pieces cover their buffers -/

theorem coverOut_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : isFirst i)
    (x0 : Vec F S10000x128 .f32) (x1 : Vec F S128x128 .f32) (x2 : Vec F S200x10000 .f32) (x3 : Vec F S200x10000 .f32) (y : S400x128.Idx) :
    ∃ pc ∈ (runFirst c i arg1 harg1 arg2 harg2 arg3 harg3 arg4 harg4 arg5 harg5 arg6 harg6 hc x0 x1 x2 x3).1, y ∈ pc.1.set :=
  View.cover_of_tiledL (runFirst c i arg1 harg1 arg2 harg2 arg3 harg3 arg4 harg4 arg5 harg5 arg6 harg6 hc x0 x1 x2 x3).1 S200x128.size (by sl_kernel_rfl) y

theorem coverScratch_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : isFirst i)
    (x0 : Vec F S10000x128 .f32) (x1 : Vec F S128x128 .f32) (x2 : Vec F S200x10000 .f32) (x3 : Vec F S200x10000 .f32) (y : S10000x128.Idx) :
    ∃ pc ∈ (runFirst c i arg1 harg1 arg2 harg2 arg3 harg3 arg4 harg4 arg5 harg5 arg6 harg6 hc x0 x1 x2 x3).2.1, y ∈ pc.1.set :=
  View.cover_of_tiledL (runFirst c i arg1 harg1 arg2 harg2 arg3 harg3 arg4 harg4 arg5 harg5 arg6 harg6 hc x0 x1 x2 x3).2.1 S10000x128.size (by sl_kernel_rfl) y

theorem coverOut_later (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : ¬isFirst i)
    (x0 : Vec F S10000x128 .f32) (x1 : Vec F S128x128 .f32) (x2 : Vec F S200x10000 .f32) (x3 : Vec F S200x10000 .f32)
    (xs : Vec F S10000x128 .f32) (y : S400x128.Idx) :
    ∃ pc ∈ (runLater c i arg1 harg1 arg2 harg2 arg3 harg3 arg4 harg4 arg5 harg5 arg6 harg6 hc x0 x1 x2 x3 xs).1, y ∈ pc.1.set :=
  View.cover_of_tiledL (runLater c i arg1 harg1 arg2 harg2 arg3 harg3 arg4 harg4 arg5 harg5 arg6 harg6 hc x0 x1 x2 x3 xs).1 S200x128.size (by sl_kernel_rfl) y

/-! ## What the buffers hold after each point -/

/-- The first grid point. -/
def t₀ : Fin cfg0.N := ⟨0, by decide⟩

theorem first_t₀ : isFirst (grid0.coords t₀) := (isFirst_iff t₀).mpr rfl

/-- The support: what the first point's stores leave in the scratch. -/
def supp (c : Dev nD) : Vec F S10000x128 .f32 :=
  VS.read (Elt F) (VS.writes (Elt F) VS.junk (runFirst c (grid0.coords t₀) (ms0 t₀) (hs0 t₀) (ms1 t₀) (hs1 t₀) (ms2 t₀) (hs2 t₀) (ms3 t₀) (hs3 t₀) (ms4 t₀) (hs4 t₀) scM (Memref.isWhole_whole _) first_t₀ (iblk m c 0 t₀) (iblk m c 1 t₀) (iblk m c 2 t₀) (iblk m c 3 t₀)).2.1)

/-- What the first point's stores leave in the output's staging buffer. -/
def outFirst (c : Dev nD) (t : Fin cfg0.N) (h : isFirst (grid0.coords t)) : Vec F S400x128 .f32 :=
  VO.read (Elt F) (VO.writes (Elt F) VO.junk (runFirst c (grid0.coords t) (ms0 t) (hs0 t) (ms1 t) (hs1 t) (ms2 t) (hs2 t) (ms3 t) (hs3 t) (ms4 t) (hs4 t) scM (Memref.isWhole_whole _) h (iblk m c 0 t) (iblk m c 1 t) (iblk m c 2 t) (iblk m c 3 t)).1)

/-- What a later point's stores leave there, the scratch holding the support. -/
def outLater (c : Dev nD) (t : Fin cfg0.N) (h : ¬isFirst (grid0.coords t)) : Vec F S400x128 .f32 :=
  VO.read (Elt F) (VO.writes (Elt F) VO.junk (runLater c (grid0.coords t) (ms0 t) (hs0 t) (ms1 t) (hs1 t) (ms2 t) (hs2 t) (ms3 t) (hs3 t) (ms4 t) (hs4 t) scM (Memref.isWhole_whole _) h (iblk m c 0 t) (iblk m c 1 t) (iblk m c 2 t) (iblk m c 3 t) (supp m c)).1)

/-- The output's staging buffer after the body at point `t`. -/
def outAt (c : Dev nD) (t : Fin cfg0.N) : Vec F S400x128 .f32 :=
  if h : isFirst (grid0.coords t) then outFirst m c t h else outLater m c t h

theorem outAt_first (c : Dev nD) (t : Fin cfg0.N) (h : isFirst (grid0.coords t)) : outAt m c t = outFirst m c t h := dif_pos h
theorem outAt_later (c : Dev nD) (t : Fin cfg0.N) (h : ¬isFirst (grid0.coords t)) : outAt m c t = outLater m c t h := dif_neg h

/-- The region's invariant before position `n`: before the first point the scoped rest (the scratch at anything);
    afterwards the scratch at the support. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (supp m c)

theorem PhiS_zero (c : Dev nD) (n : ℕ) (hz : n = 0) :
    PhiS m c n = Pipeline.scopedRest (Ix := Unit) (Name := ℕ) (U := UR sig nD τ) (Lvl := ℕ) (Val := Elt F) spec0 c := by
  subst hz; rfl

theorem PhiS_pos (c : Dev nD) (n : ℕ) (hz : n ≠ 0) : PhiS m c n = owns (c : Thread nD τ) scM fullShare (supp m c) := by
  cases n with
  | zero => exact absurd rfl hz
  | succ n => rfl

/-! ## The proof data -/

/-- The proof data of the pipeline on core `c`: the arrays as the region finds them; after the body each
    input's buffer at its block and the output's at `outAt`; the invariant `PhiS`; nothing owed; the adjacency
    matrix held half and half by its two windows, every other input whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

/-- Each input's current staging buffer holds its block at every point, whether the point fetches it or not:
    a block not fetched again has not moved. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 4000000 in
/-- The body at any point. The inputs' buffers hold their blocks. At the first point the scratch holds anything
    and the run stores the support into it; at a later point the scratch holds the support and the run only
    reads it. Either way the output's buffer ends covered by the run's two pieces. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    show (dats m 0 c).Φ t.succ = PhiS m c (t.val + 1) from rfl, PhiS_pos m c _ (Nat.succ_ne_zero _),
    show (dats m 0 c).Φ t.castSucc = PhiS m c t.val from rfl,
    after_0, after_1, after_2, after_3, after_4]
  by_cases h0 : t.val = 0
  · rw [PhiS_zero m c _ h0, scopedRest_scratch]
    obtain rfl : t = t₀ := Fin.ext h0
    rw [outAt_first m c t₀ first_t₀]
    unfold outFirst
    iintro ⟨HS, Ho, ⟨%d0, H0⟩, ⟨%d1, H1⟩, ⟨%d2, H2⟩, ⟨%d3, H3⟩, ⟨%d4, H4⟩⟩
    iapply ((runFirst c (grid0.coords t₀) _ _ _ _ _ _ _ _ _ _ _ _ first_t₀ (iblk m c 0 t₀) (iblk m c 1 t₀) (iblk m c 2 t₀) (iblk m c 3 t₀)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (coverScratch_first c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOut_first c _ _ _ _ _ _ _ _ _ _ _ _ _ _ _ _ _ _)
  · have hl : ¬isFirst (grid0.coords t) := fun h => h0 ((isFirst_iff t).mp h)
    rw [PhiS_pos m c _ h0, outAt_later m c t hl]
    unfold outLater
    iintro ⟨HS, Ho, ⟨%d0, H0⟩, ⟨%d1, H1⟩, ⟨%d2, H2⟩, ⟨%d3, H3⟩, ⟨%d4, H4⟩⟩
    iapply ((runLater c (grid0.coords t) _ _ _ _ _ _ _ _ _ _ _ _ hl (iblk m c 0 t) (iblk m c 1 t) (iblk m c 2 t) (iblk m c 3 t) (supp m c)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOut_later c _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The arrays at the entry -/

theorem share_0 (c : Dev nD) : (dats m 0 c).share 0 = fullShare := rfl
theorem share_1 (c : Dev nD) : (dats m 0 c).share 1 = fullShare := rfl
theorem share_2 (c : Dev nD) : (dats m 0 c).share 2 = fullShare.left := rfl
theorem share_3 (c : Dev nD) : (dats m 0 c).share 3 = fullShare.right := rfl
theorem share_4 (c : Dev nD) : (dats m 0 c).share 4 = fullShare := rfl

/-- The four buffers behind the five windows' arrays, each whole at the full share, are the pipeline's arrays at
    the entry: the adjacency matrix's full share splits into the two halves its two windows hold. -/
theorem arrays_of_bufs (c : Dev nD) :
    (Pipeline.arrBufs spec0 c (V m c) : sProp 𝕄) ⊢ (dats m 0 c).arrays ((dats m 0 c).arrAt · 0) := by
  have hL (Φ : Ref sig .tc → sProp 𝕄) : bigSep (Finset.univ.image (Pipeline.arrRef spec0)) Φ
      = iprop(Φ main_arg0 ∗ Φ main_arg2 ∗ Φ main_arg1 ∗ Φ main_v0) :=
    bigSep_eq_bigSepL_of_eq [main_arg0, main_arg2, main_arg1, main_v0] (by decide) (by decide) Φ
  unfold Pipeline.arrBufs Dat.arrays
  rw [bigSep_W0, hL]
  rw [(arr_whole0 0).set_eq_univ, (arr_whole0 1).set_eq_univ, (arr_whole0 2).set_eq_univ, (arr_whole0 4).set_eq_univ,
    share_0, share_1, share_2, share_3, share_4]
  iintro ⟨H0, H2, H1, H4⟩
  ihave ⟨H1a, H1b⟩ := (pointsTo_share (PosShare.mem_left_op_right fullShare)).1 $$ H1
  isplitl [H0]; · iexact H0
  isplitl [H2]; · iexact H2
  isplitl [H1a]; · iexact H1a
  isplitl [H1b]; · iexact H1b
  iexact H4

/-! ## The run -/

set_option backward.isDefEq.respectTransparency.types false in
/-- From any memory with zero counters every weakly fair execution of the program terminates, and at the end every
    window's array holds what the write-backs of the proof data leave in it: the run of one region whose windows
    share an array, entered from the scratch at anything and left with the scratch forgotten again. -/
theorem run_main : θ_run defs (onTc (τ := τ) (main (F := F))) (s₀ m ρ)
    (fun r => ∀ c : Dev nD, ∀ w : Fin cfg0.W, r.2.mem (((cfg0).spec w).arr.view.loc (c.tc : Thread nD τ)) = (dats m 0 c).arrAt w cfg0.N) :=
  Cert.LibSharedArrayRun.run_shared cfgs (dats m) cellOf_inj (0 : Fin 1) winFacts₀0 defs₀ Variants.none m ρ main
    (hbody := fun c => (body_obligation m c).loose) (hne := block_pos0) (harr := arr_whole0) (hstage := stage_whole0)
    (howed := fun _ _ => rfl) (V := V m) (hmain := hmain m Variants.none) (hsplit := arrays_of_bufs m)
    (hin := fun c => by
      rw [show (dats m 0 c).Φ 0 = PhiS m c 0 from rfl, PhiS_zero m c 0 rfl]
      try exact Idealize.SL.BI.Entails.refl _)
    (hout := fun c => by
      rw [show (dats m 0 c).Φ (Fin.last cfg0.N) = PhiS m c (Fin.last cfg0.N).val from rfl,
        PhiS_pos m c _ (by rw [Fin.val_last]; have : cfg0.N = 25 := N_0; omega), scopedRest_scratch]
      iintro H; iexists _; iexact H)

/-- The frame: the program runs to the end and its three arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c) 0).trans ((dats m 0 c).arrAt_in 0 rfl _),
     ((h c) 2).trans ((dats m 0 c).arrAt_in 2 rfl _),
     ((h c) 1).trans ((dats m 0 c).arrAt_in 1 rfl _)⟩) (run_main m ρ)

end Cert.KernelIdeal.Fr

end
-- ==== Proof.IdealPieces.lean ====
/-
  The stored pieces of the two runs in closed form.

  A load through the whole rectangle of a buffer reads its contents, and a load of the scratch right after the
  one store that covers it reads that store's payload. So the pieces are the three matrix products of the
  buffers' contents: at the first point the support is the product of x and W and both output halves are
  products with it; at a later point both output halves are products with what the scratch holds.
-/
import proofs.«122292_g23965917512253_cont_8to1_1062_13_alg».proof.Proof.IdealFrame
import Idealize.ShloMosaic.Lib.Pipeline.Value

set_option maxRecDepth 65536

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero_off : (![0, 0] : Fin 2 → Nat) = fun _ => 0 := funext fun a => by fin_cases a <;> rfl

/-- The upper and the lower half of the output's staging buffer, and the whole scratch, as rectangles. -/
abbrev upper : Rect S400x128 := Rect.unit (s := S400x128) ![0, 0] S200x128.size inb_S400x128_S200x128_0_0
abbrev lower : Rect S400x128 := Rect.unit (s := S400x128) ![200, 0] S200x128.size inb_S400x128_S200x128_200_0
abbrev wholeScratch : Rect S10000x128 := Rect.unit (s := S10000x128) ![0, 0] S10000x128.size inb_S10000x128_S10000x128_0_0

theorem runFirst_scratch (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : isFirst i)
    (x0 : Vec F S10000x128 .f32) (x1 : Vec F S128x128 .f32) (x2 : Vec F S200x10000 .f32) (x3 : Vec F S200x10000 .f32) :
    (runFirst c i arg1 harg1 arg2 harg2 arg3 harg3 arg4 harg4 arg5 harg5 arg6 harg6 hc x0 x1 x2 x3).2.1 = [⟨wholeScratch, k0_pay1 x0 x1⟩] := by
  unfold runFirst
  dsimp only
  sl_unfold_words
  simp only [View.readAt_eq_ld, Memref.IsWhole.read_unread, View.ld_unit_zero (S := S10000x128) zero_off,
    View.ld_unit_zero (S := S128x128) zero_off]

theorem runFirst_out (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : isFirst i)
    (x0 : Vec F S10000x128 .f32) (x1 : Vec F S128x128 .f32) (x2 : Vec F S200x10000 .f32) (x3 : Vec F S200x10000 .f32) :
    (runFirst c i arg1 harg1 arg2 harg2 arg3 harg3 arg4 harg4 arg5 harg5 arg6 harg6 hc x0 x1 x2 x3).1
      = [⟨lower, k0_pay3 x3 (k0_pay1 x0 x1)⟩, ⟨upper, k0_pay2 x2 (k0_pay1 x0 x1)⟩] := by
  unfold runFirst
  dsimp only
  sl_unfold_words
  simp only [View.readAt_eq_ld, Memref.IsWhole.read_unread, View.ld_unit_zero (S := S10000x128) zero_off,
    View.ld_unit_zero (S := S128x128) zero_off, View.ld_unit_zero (S := S200x10000) zero_off,
    View.readCov_unit_zero (S := S10000x128) _ zero_off]

theorem runLater_out (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : ¬isFirst i)
    (x0 : Vec F S10000x128 .f32) (x1 : Vec F S128x128 .f32) (x2 : Vec F S200x10000 .f32) (x3 : Vec F S200x10000 .f32)
    (xs : Vec F S10000x128 .f32) :
    (runLater c i arg1 harg1 arg2 harg2 arg3 harg3 arg4 harg4 arg5 harg5 arg6 harg6 hc x0 x1 x2 x3 xs).1
      = [⟨lower, k0_pay3 x3 xs⟩, ⟨upper, k0_pay2 x2 xs⟩] := by
  unfold runLater
  dsimp only
  sl_unfold_words
  simp only [View.readAt_eq_ld, Memref.IsWhole.read_unread, View.ld_unit_zero (S := S10000x128) zero_off,
    View.ld_unit_zero (S := S200x10000) zero_off]

end Cert.KernelIdeal.Fr

end
-- ==== Proof.Spec.lean ====
/-
  What the graph-convolution layer computes, entry by entry, over the extended reals.

  With x of shape [10000, 128], adj of shape [10000, 10000] and W of shape [128, 128] (stored as
  [out, in]), the support is x * W^T, support[k, j] = sum over d of x[k, d] * W[j, d], and the result is
  adj * support, result[i, j] = sum over k of adj[i, k] * support[k, j]. Both the kernel and the reference
  compute the inner product first and the outer one second, so no sum is reordered and no finiteness is needed.
-/
import Idealize.ShloMosaic.PureOps.Ideal
import Idealize.ShloMosaic.Lib.ValueIdx

noncomputable section

namespace Cert.Gcn

open Idealize.ShloMosaic Idealize.ShloMosaic.ValueIdx

/-- Entry (k, j) of the support x * W^T. -/
def support (x : (⟨2, ![10000, 128]⟩ : Shape).Idx → EReal) (w : (⟨2, ![128, 128]⟩ : Shape).Idx → EReal)
    (k : Fin 10000) (j : Fin 128) : EReal :=
  ∑ d : Fin 128, x (ix2 k d) * w (ix2 j d)

/-- Entry (i, j) of adj * (x * W^T). -/
def entry (x : (⟨2, ![10000, 128]⟩ : Shape).Idx → EReal) (adj : (⟨2, ![10000, 10000]⟩ : Shape).Idx → EReal)
    (w : (⟨2, ![128, 128]⟩ : Shape).Idx → EReal) (i : Fin 10000) (j : Fin 128) : EReal :=
  ∑ k : Fin 10000, adj (ix2 i k) * support x w k j

/-- The whole result array. -/
def result (x : (⟨2, ![10000, 128]⟩ : Shape).Idx → EReal) (adj : (⟨2, ![10000, 10000]⟩ : Shape).Idx → EReal)
    (w : (⟨2, ![128, 128]⟩ : Shape).Idx → EReal) : (⟨2, ![10000, 128]⟩ : Shape).Idx → EReal :=
  fun s => entry x adj w (s 0) (s 1)

end Cert.Gcn

end
-- ==== Proof.IdealPayloads.lean ====
/-
  The kernel's three matrix products read at an entry, over the extended reals.

  The first product contracts the second axis of x with the second axis of W (it is x * W^T); the other two
  contract the second axis of a 200-row block of adj with the first axis of the support. Each accumulates
  into a zero array, so at an entry each is the plain sum of the products over the contracted coordinate.
-/
import proofs.«122292_g23965917512253_cont_8to1_1062_13_alg».proof.Proof.Gen.KernelIdeal.Skeleton
import proofs.«122292_g23965917512253_cont_8to1_1062_13_alg».proof.Proof.Spec
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Idealize.ShloMosaic Idealize.ShloMosaic.ValueIdx

/-! ## x * W^T -/

theorem lhs1_0 (i : S10000x128.Idx) (q : dot_S10000x128_S128x128_S10000x128_1_1_0_0_n_n.contr.Idx) : (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
theorem lhs1_1 (i : S10000x128.Idx) (q : dot_S10000x128_S128x128_S10000x128_1_1_0_0_n_n.contr.Idx) : (dot_S10000x128_S128x128_S10000x128_1_1_0_0_n_n.lhsIdx i q 1).val = (q ⟨0, by decide⟩).val :=
  dot_S10000x128_S128x128_S10000x128_1_1_0_0_n_n.lhsIdx_val_of_single rfl i q
theorem rhs1_0 (i : S10000x128.Idx) (q : dot_S10000x128_S128x128_S10000x128_1_1_0_0_n_n.contr.Idx) : (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
theorem rhs1_1 (i : S10000x128.Idx) (q : dot_S10000x128_S128x128_S10000x128_1_1_0_0_n_n.contr.Idx) : (dot_S10000x128_S128x128_S10000x128_1_1_0_0_n_n.rhsIdx i q 1).val = (q ⟨0, by decide⟩).val :=
  dot_S10000x128_S128x128_S10000x128_1_1_0_0_n_n.rhsIdx_val_of_single rfl i q

/-- The support's payload at entry (k, j): the sum over d of x[k, d] * W[j, d]. -/
theorem pay1_apply (x : Vec Ideal S10000x128 .f32) (w : Vec Ideal S128x128 .f32) (k : Fin 10000) (j : Fin 128) :
    k0_pay1 (F := Ideal) x w (ix2 k j) = Cert.Gcn.support x w k j := by
  unfold k0_pay1 Cert.Gcn.support
  rw [shapeCast_self]
  simp only [matmul]
  rw [Ideal.matmul_constant_zero_apply, ← Equiv.sum_comp (contrEquiv1 dot_S10000x128_S128x128_S10000x128_1_1_0_0_n_n 128 rfl rfl).symm]
  refine Finset.sum_congr rfl fun d _ => ?_
  have hk := contrEquiv1_symm_val dot_S10000x128_S128x128_S10000x128_1_1_0_0_n_n 128 rfl rfl d
  have el : dot_S10000x128_S128x128_S10000x128_1_1_0_0_n_n.lhsIdx (ix2 k j) ((contrEquiv1 dot_S10000x128_S128x128_S10000x128_1_1_0_0_n_n 128 rfl rfl).symm d) = ix2 k d := funext fun a => Fin.ext (by
    match a with
    | ⟨0, _⟩ => exact lhs1_0 _ _
    | ⟨1, _⟩ => exact (lhs1_1 _ _).trans hk)
  have er : dot_S10000x128_S128x128_S10000x128_1_1_0_0_n_n.rhsIdx (ix2 k j) ((contrEquiv1 dot_S10000x128_S128x128_S10000x128_1_1_0_0_n_n 128 rfl rfl).symm d) = ix2 j d := funext fun a => Fin.ext (by
    match a with
    | ⟨0, _⟩ => exact rhs1_0 _ _
    | ⟨1, _⟩ => exact (rhs1_1 _ _).trans hk)
  rw [el, er]

/-! ## A block of adj times the support -/

theorem lhs2_0 (i : S200x128.Idx) (q : dot_S200x10000_S10000x128_S200x128_1_0_0_1_n_n.contr.Idx) : (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhs2_1 (i : S200x128.Idx) (q : dot_S200x10000_S10000x128_S200x128_1_0_0_1_n_n.contr.Idx) : (dot_S200x10000_S10000x128_S200x128_1_0_0_1_n_n.lhsIdx i q 1).val = (q ⟨0, by decide⟩).val :=
  dot_S200x10000_S10000x128_S200x128_1_0_0_1_n_n.lhsIdx_val_of_single rfl i q
theorem rhs2_0 (i : S200x128.Idx) (q : dot_S200x10000_S10000x128_S200x128_1_0_0_1_n_n.contr.Idx) : (dot_S200x10000_S10000x128_S200x128_1_0_0_1_n_n.rhsIdx i q 0).val = (q ⟨0, by decide⟩).val :=
  dot_S200x10000_S10000x128_S200x128_1_0_0_1_n_n.rhsIdx_val_of_single rfl i q
theorem rhs2_1 (i : S200x128.Idx) (q : dot_S200x10000_S10000x128_S200x128_1_0_0_1_n_n.contr.Idx) : (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- A 200-row block `a` of adj times an array `s`, at entry (p, j): the sum over k of a[p, k] * s[k, j]. -/
theorem blockProduct_apply (a : FVec Ideal S200x10000 .f32) (s : FVec Ideal S10000x128 .f32) (p : Fin 200) (j : Fin 128) :
    matmul (F := Ideal) (φ₁ := .f32) (φ₂ := .f32) dot_S200x10000_S10000x128_S200x128_1_0_0_1_n_n none a s (constant (F := Ideal) S200x128 .f32 0x00000000#32) (ix2 p j)
      = ∑ k : Fin 10000, a (ix2 p k) * s (ix2 k j) := by
  simp only [matmul]
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 p j) ((contrEquiv1 dot_S200x10000_S10000x128_S200x128_1_0_0_1_n_n 10000 rfl rfl).symm k) = ix2 p k := funext fun a => Fin.ext (by
    match a with
    | ⟨0, _⟩ => exact lhs2_0 _ _
    | ⟨1, _⟩ => exact (lhs2_1 _ _).trans hk)
  have er : dot_S200x10000_S10000x128_S200x128_1_0_0_1_n_n.rhsIdx (ix2 p j) ((contrEquiv1 dot_S200x10000_S10000x128_S200x128_1_0_0_1_n_n 10000 rfl rfl).symm k) = ix2 k j := funext fun a => Fin.ext (by
    match a with
    | ⟨0, _⟩ => exact (rhs2_0 _ _).trans hk
    | ⟨1, _⟩ => exact rhs2_1 _ _)
  rw [el, er]

theorem pay2_apply (a : Vec Ideal S200x10000 .f32) (s : Vec Ideal S10000x128 .f32) (p : Fin 200) (j : Fin 128) :
    k0_pay2 (F := Ideal) a s (ix2 p j) = ∑ k : Fin 10000, a (ix2 p k) * s (ix2 k j) := by
  unfold k0_pay2; exact blockProduct_apply a s p j

theorem pay3_apply (a : Vec Ideal S200x10000 .f32) (s : Vec Ideal S10000x128 .f32) (p : Fin 200) (j : Fin 128) :
    k0_pay3 (F := Ideal) a s (ix2 p j) = ∑ k : Fin 10000, a (ix2 p k) * s (ix2 k j) := by
  unfold k0_pay3; exact blockProduct_apply a s p j

end Cert.KernelIdeal.Val

end
-- ==== Proof.IdealValue.lean ====
/-
  The kernel's output array after the run, over the extended reals: entry (i, j) is the sum over k of
  adj[i, k] times the support's entry (k, j).

  Point t of the grid fetches the adjacency rows 400t .. 400t+199 through one window and 400t+200 .. 400t+399
  through the other, multiplies each block with the support, and writes the two products back as rows
  400t .. 400t+399 of the output. The 25 output blocks tile the array, so every entry is written once.
-/
import proofs.«122292_g23965917512253_cont_8to1_1062_13_alg».proof.Proof.IdealPieces
import proofs.«122292_g23965917512253_cont_8to1_1062_13_alg».proof.Proof.IdealPayloads

set_option maxRecDepth 65536

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable (m : (ℓ : Loc nD τ sig) → Buf (Elt Ideal) ℓ) (ρ : Dev nD → PrngReg)

/-! ## Where the blocks sit -/

/-- The windows' block indices at point `t`, decided over the grid: x and W sit at block (0, 0); the two
    adjacency windows at row blocks 2t and 2t + 1; the output at row block t. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 2 * t.val ∧ win0_2.index t (1 : Fin 2) = 0
    ∧ win0_3.index t (0 : Fin 2) = 2 * t.val + 1 ∧ win0_3.index t (1 : Fin 2) = 0
    ∧ win0_4.index t (0 : Fin 2) = t.val ∧ win0_4.index t (1 : Fin 2) = 0 :=
  (by decide +kernel : ∀ t : Fin grid0.N, _)

/-- The block of x is x. -/
theorem xblock_apply (c : Dev nD) (t : Fin cfg0.N) (k : Fin 10000) (d : Fin 128) :
    iblk m c 0 t (ix2 k d) = V m c main_arg0 (ix2 k d) := by
  obtain ⟨e0, e1, -⟩ := idx_facts t
  show V m c main_arg0 (((cfg0.win 0).blk t).view.emb (ix2 k d)) = V m c main_arg0 (ix2 k d)
  refine congrArg _ (funext fun a => Fin.ext ?_)
  match a with
  | ⟨0, _⟩ => show win0_0.index t (0 : Fin 2) * 10000 + 1 * k.val = k.val; omega
  | ⟨1, _⟩ => show win0_0.index t (1 : Fin 2) * 128 + 1 * d.val = d.val; omega

/-- The block of W is W. -/
theorem wblock_apply (c : Dev nD) (t : Fin cfg0.N) (j : Fin 128) (d : Fin 128) :
    iblk m c 1 t (ix2 j d) = V m c main_arg2 (ix2 j d) := by
  obtain ⟨-, -, e0, e1, -⟩ := idx_facts t
  show V m c main_arg2 (((cfg0.win 1).blk t).view.emb (ix2 j d)) = V m c main_arg2 (ix2 j d)
  refine congrArg _ (funext fun a => Fin.ext ?_)
  match a with
  | ⟨0, _⟩ => show win0_1.index t (0 : Fin 2) * 128 + 1 * j.val = j.val; omega
  | ⟨1, _⟩ => show win0_1.index t (1 : Fin 2) * 128 + 1 * d.val = d.val; omega

/-- Row p of the first adjacency window's block at point t is row 400t + p of adj. -/
theorem upperRows_apply (c : Dev nD) (t : Fin cfg0.N) (p : Fin 200) (k : Fin 10000) (R : Fin 10000)
    (hR : R.val = 400 * t.val + p.val) : iblk m c 2 t (ix2 p k) = V m c main_arg1 (ix2 R k) := by
  obtain ⟨-, -, -, -, e0, e1, -⟩ := idx_facts t
  show V m c main_arg1 (((cfg0.win 2).blk t).view.emb (ix2 p k)) = V m c main_arg1 (ix2 R k)
  refine congrArg _ (funext fun a => Fin.ext ?_)
  match a with
  | ⟨0, _⟩ => show win0_2.index t (0 : Fin 2) * 200 + 1 * p.val = R.val; omega
  | ⟨1, _⟩ => show win0_2.index t (1 : Fin 2) * 10000 + 1 * k.val = k.val; omega

/-- Row p of the second adjacency window's block at point t is row 400t + 200 + p of adj. -/
theorem lowerRows_apply (c : Dev nD) (t : Fin cfg0.N) (p : Fin 200) (k : Fin 10000) (R : Fin 10000)
    (hR : R.val = 400 * t.val + 200 + p.val) : iblk m c 3 t (ix2 p k) = V m c main_arg1 (ix2 R k) := by
  obtain ⟨-, -, -, -, -, -, e0, e1, -⟩ := idx_facts t
  show V m c main_arg1 (((cfg0.win 3).blk t).view.emb (ix2 p k)) = V m c main_arg1 (ix2 R k)
  refine congrArg _ (funext fun a => Fin.ext ?_)
  match a with
  | ⟨0, _⟩ => show win0_3.index t (0 : Fin 2) * 200 + 1 * p.val = R.val; omega
  | ⟨1, _⟩ => show win0_3.index t (1 : Fin 2) * 10000 + 1 * k.val = k.val; omega

/-! ## The support and the output blocks -/

/-- The scratch holds the product of x's block and W's block at the first point. -/
theorem supp_eq (c : Dev nD) : supp m c = k0_pay1 (iblk m c 0 t₀) (iblk m c 1 t₀) := by
  unfold supp
  rw [runFirst_scratch,
    View.read_writes_eq_canon _ _ _ (fun y => ⟨⟨wholeScratch, _⟩, List.mem_singleton_self _, View.mem_set_unit_zero zero_off inb_S10000x128_S10000x128_0_0 y⟩),
    View.canon_unit_zero zero_off]

/-- Entry (k, j) of the scratch is the support's entry. -/
theorem supp_apply (c : Dev nD) (k : Fin 10000) (j : Fin 128) :
    supp m c (ix2 k j) = Cert.Gcn.support (V m c main_arg0) (V m c main_arg2) k j := by
  rw [supp_eq]
  refine (pay1_apply _ _ k j).trans ?_
  unfold Cert.Gcn.support
  exact Finset.sum_congr rfl fun d _ => by rw [xblock_apply, wblock_apply]

/-- What the body leaves in the output's staging buffer at any point: the two products with the support. -/
theorem outAt_eq (c : Dev nD) (t : Fin cfg0.N) :
    outAt m c t = View.canon [⟨lower, k0_pay3 (iblk m c 3 t) (supp m c)⟩, ⟨upper, k0_pay2 (iblk m c 2 t) (supp m c)⟩] := by
  by_cases h : isFirst (grid0.coords t)
  · rw [outAt_first m c t h]
    unfold outFirst
    rw [View.read_writes_eq_canon _ _ _ (coverOut_first c _ _ _ _ _ _ _ _ _ _ _ _ _ h _ _ _ _), runFirst_out]
    obtain rfl : t = t₀ := Fin.ext ((isFirst_iff t).mp h)
    rw [supp_eq]
  · rw [outAt_later m c t h]
    unfold outLater
    rw [View.read_writes_eq_canon _ _ _ (coverOut_later c _ _ _ _ _ _ _ _ _ _ _ _ _ h _ _ _ _ _), runLater_out]

/-- The lower half's payload at (p, j) is entry (400t + 200 + p, j) of the result. -/
theorem lower_entry (c : Dev nD) (t : Fin cfg0.N) (p : Fin 200) (j : Fin 128) (R : Fin 10000) (J : Fin 128)
    (hR : R.val = 400 * t.val + 200 + p.val) (hJ : J.val = j.val) :
    k0_pay3 (F := Ideal) (iblk m c 3 t) (supp m c) (ix2 p j) = Cert.Gcn.entry (V m c main_arg0) (V m c main_arg1) (V m c main_arg2) R J := by
  obtain rfl : J = j := Fin.ext hJ
  refine (pay3_apply _ _ p J).trans ?_
  unfold Cert.Gcn.entry
  exact Finset.sum_congr rfl fun k _ => by rw [lowerRows_apply m c t p k R hR, supp_apply]

/-- The upper half's payload at (p, j) is entry (400t + p, j) of the result. -/
theorem upper_entry (c : Dev nD) (t : Fin cfg0.N) (p : Fin 200) (j : Fin 128) (R : Fin 10000) (J : Fin 128)
    (hR : R.val = 400 * t.val + p.val) (hJ : J.val = j.val) :
    k0_pay2 (F := Ideal) (iblk m c 2 t) (supp m c) (ix2 p j) = Cert.Gcn.entry (V m c main_arg0) (V m c main_arg1) (V m c main_arg2) R J := by
  obtain rfl : J = j := Fin.ext hJ
  refine (pay2_apply _ _ p J).trans ?_
  unfold Cert.Gcn.entry
  exact Finset.sum_congr rfl fun k _ => by rw [upperRows_apply m c t p k R hR, supp_apply]

/-- What point t writes back is block t of the result array. -/
theorem flushed_eq (c : Dev nD) (t : Fin cfg0.N) :
    (dats m 0 c).flushed 4 t = ((cfg0.win 4).blk t).view.read (Elt Ideal) (Cert.Gcn.result (V m c main_arg0) (V m c main_arg1) (V m c main_arg2)) := by
  show (cfg0.win 4).cut (grid0.coords t) ((dats m 0 c).after 4 t) = _
  rw [after_4, outAt_eq]
  obtain ⟨-, -, -, -, -, -, -, -, e0, e1⟩ := idx_facts t
  funext y
  show View.canon (Val := Elt Ideal) (s := S400x128) (e := .f32) [⟨lower, k0_pay3 (F := Ideal) (iblk m c 3 t) (supp m c)⟩, ⟨upper, k0_pay2 (F := Ideal) (iblk m c 2 t) (supp m c)⟩] y
    = Cert.Gcn.result (V m c main_arg0) (V m c main_arg1) (V m c main_arg2) (((cfg0.win 4).blk t).view.emb y)
  refine View.canon_apply_of_pieces (Val := Elt Ideal) (S := S400x128) (e := .f32) (fun y' => Cert.Gcn.result (V m c main_arg0) (V m c main_arg1) (V m c main_arg2) (((cfg0.win 4).blk t).view.emb y')) _ ?_ y ?_
  · intro pc hpc x
    simp only [List.mem_cons, List.mem_nil_iff, or_false] at hpc
    rcases hpc with rfl | rfl
    · obtain ⟨p, j, rfl⟩ : ∃ (p : Fin 200) (j : Fin 128), x = ix2 p j := ⟨x 0, x 1, eq_ix2 x⟩
      exact lower_entry m c t p j _ _
        (by show win0_4.index t (0 : Fin 2) * 400 + 1 * (200 + 1 * p.val) = _; omega)
        (by show win0_4.index t (1 : Fin 2) * 128 + 1 * (0 + 1 * j.val) = _; omega)
    · obtain ⟨p, j, rfl⟩ : ∃ (p : Fin 200) (j : Fin 128), x = ix2 p j := ⟨x 0, x 1, eq_ix2 x⟩
      exact upper_entry m c t p j _ _
        (by show win0_4.index t (0 : Fin 2) * 400 + 1 * (0 + 1 * p.val) = _; omega)
        (by show win0_4.index t (1 : Fin 2) * 128 + 1 * (0 + 1 * j.val) = _; omega)
  · exact View.cover_of_tiledL (Val := Elt Ideal) (s := S400x128) (e := .f32) [⟨lower, k0_pay3 (F := Ideal) (iblk m c 3 t) (supp m c)⟩, ⟨upper, k0_pay2 (F := Ideal) (iblk m c 2 t) (supp m c)⟩]
      S200x128.size (by sl_kernel_rfl) y

/-! ## The blocks tile the array -/

theorem mem_outBlock (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- Every entry of the output lies in the block of the point its row falls in. -/
theorem covered (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  refine ⟨⟨(i 0).val / 400, by omega⟩, flush0_4 _, ?_⟩
  rw [mem_outBlock]
  obtain ⟨-, -, -, -, -, -, -, -, e0, e1⟩ := idx_facts ⟨(i 0).val / 400, by omega⟩
  intro a
  match a with
  | ⟨0, _⟩ =>
    show win0_4.index ⟨(i 0).val / 400, _⟩ (0 : Fin 2) * 400 ≤ (i 0).val ∧ (i 0).val < win0_4.index ⟨(i 0).val / 400, _⟩ (0 : Fin 2) * 400 + 400
    rw [e0]; dsimp only; omega
  | ⟨1, _⟩ =>
    show win0_4.index ⟨(i 0).val / 400, _⟩ (1 : Fin 2) * 128 ≤ (i 1).val ∧ (i 1).val < win0_4.index ⟨(i 0).val / 400, _⟩ (1 : Fin 2) * 128 + 128
    rw [e1]; omega

/-- The output array after the run. -/
theorem final (c : Dev nD) : (dats m 0 c).arrAt 4 cfg0.N = Cert.Gcn.result (V m c main_arg0) (V m c main_arg1) (V m c main_arg2) :=
  (dats m 0 c).arrAt_eq_of_cover 4 _ (fun t _ => flushed_eq m c t) covered

/-! ## The run, read -/

/-- Every weakly fair execution of the kernel's program terminates with the output at the result array and the
    three arguments unchanged. -/
theorem run : θ_run defs (onTc (τ := τ) (main (F := Ideal))) ⟨m, fun _ => 0, ρ⟩ fun r => ∀ c : Dev nD,
      r.2.mem ((c.tc : Thread nD τ).loc main_v0) = Cert.Gcn.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c) 4).trans (final m c),
     ((h c) 0).trans ((dats m 0 c).arrAt_in 0 rfl _),
     ((h c) 2).trans ((dats m 0 c).arrAt_in 2 rfl _),
     ((h c) 1).trans ((dats m 0 c).arrAt_in 1 rfl _)⟩) (run_main m ρ)

end Cert.KernelIdeal.Val

end
-- ==== Proof.RefSide.lean ====
/-
  The reference's result is the result array of the specification.

  The reference transposes W, multiplies x with the transpose (contracting x's second axis with the
  transpose's first), and multiplies adj with that product. Read at an entry, the transpose of W at (d, j) is
  W at (j, d), so the inner product is the support's entry and the outer one the result's.
-/
import proofs.«122292_g23965917512253_cont_8to1_1062_13_alg».proof.Proof.Gen.ReferenceIdeal.Run
import proofs.«122292_g23965917512253_cont_8to1_1062_13_alg».proof.Proof.Gen.ReferenceIdeal.Read
import proofs.«122292_g23965917512253_cont_8to1_1062_13_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's last stage, as a whole array, is the specification's result. -/
theorem result_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    val_main_v2 (F := Ideal) x0 x1 x2 = Cert.Gcn.result x0 x1 x2 := by
  funext i
  rw [val_main_v2_apply]
  unfold Cert.Gcn.result Cert.Gcn.entry
  refine Finset.sum_congr rfl fun k _ => ?_
  have e1 : lidx_main_v2 i k = ix2 (i 0) k := funext fun a => Fin.ext (by
    match a with
    | ⟨0, _⟩ => rfl
    | ⟨1, _⟩ => rfl)
  rw [e1, val_main_v1_apply]
  unfold Cert.Gcn.support
  refine congrArg _ (Finset.sum_congr rfl fun d _ => ?_)
  have e2 : lidx_main_v1 (ridx_main_v2 i k) d = ix2 k d := funext fun a => Fin.ext (by
    match a with
    | ⟨0, _⟩ => rfl
    | ⟨1, _⟩ => rfl)
  have e3 : idx_main_v0 (ridx_main_v1 (ridx_main_v2 i k) d) = ix2 (i 1) d := funext fun a => Fin.ext (by
    match a with
    | ⟨0, _⟩ => rfl
    | ⟨1, _⟩ => rfl)
  rw [val_main_v0_apply, e2, e3]
  rfl

end Cert.ReferenceIdeal.RefValue

end
-- ==== Proof.lean ====
/-
  A dense graph-convolution layer, output = adj * (x * W^T), as a kernel on a grid of 25 points against its plain
  reference.

  The kernel computes the support x * W^T once, at the first grid point, into a scratch buffer that it reads at
  every point; each point multiplies two 200-row blocks of adj with the support and writes 400 rows of the
  output. The reference transposes W and takes the two products whole. Over the extended reals both are, entry
  by entry, the sum over k of adj[i, k] times the sum over d of x[k, d] * W[j, d], with the sums nested the
  same way, so the two results are equal with no appeal to finiteness.

  The frames: the kernel reads adj through two windows, which hold its buffer at half the full share each; the
  scratch is carried from point to point at the support. The reference is three host operations.
-/
import proofs.«122292_g23965917512253_cont_8to1_1062_13_alg».proof.Defs
import proofs.«122292_g23965917512253_cont_8to1_1062_13_alg».proof.Proof.BitsFrame
import proofs.«122292_g23965917512253_cont_8to1_1062_13_alg».proof.Proof.IdealFrame
import proofs.«122292_g23965917512253_cont_8to1_1062_13_alg».proof.Proof.IdealValue
import proofs.«122292_g23965917512253_cont_8to1_1062_13_alg».proof.Proof.RefSide
import proofs.«122292_g23965917512253_cont_8to1_1062_13_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel (hKernel := Cert.Kernel.Gen.facts) (hPre_finite_inputs := Cert.Pre_finite_inputs.Gen.facts) :=
  fun m ρ _ => Cert.Kernel.Fr.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Fr.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the specification's result array of the arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
